-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v6) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S320000 : Shape := ⟨1, ![320000]⟩
abbrev S8x256 : Shape := ⟨2, ![8, 256]⟩
abbrev S_ : Shape := ⟨0, ![]⟩

class Facts : Prop where
  bcast_S_S320000 : S_.BroadcastsInDim S320000 (![] : Fin 0 → Fin S320000.rank)
  reducesTo_S320000_S_d0 : S320000.ReducesTo [0] S_
  h_S_ : 0 < S_.numel
  bcast_S_S8x256 : S_.BroadcastsInDim S8x256 (![] : Fin 0 → Fin S8x256.rank)
  reducesTo_S8x256_S_d0_1 : S8x256.ReducesTo [0, 1] S_

variable [Facts]

def fn_part1 {F : FTy → Type} [FloatOps F] (main_arg1 : IVec S320000 32) (main_v13 : IVec S_ 1) (main_v15 : IVec S320000 1) (main_c_5 : IVec S_ 1) : IVec S_ 1 :=
  let main_v16 : IVec S_ 1 := (fun x v => Host.reduce IntOp.andi x v reducesTo_S320000_S_d0 h_S_) main_v15 main_c_5
  let main_v17 : IVec S_ 1 := andi main_v13 main_v16
  let main_c_6 : IVec S_ 32 := constantI S_ 32 8#32
  let main_v18 : IVec S320000 32 := broadcastInDim S320000 ![] bcast_S_S320000 main_c_6
  let main_v19 : IVec S320000 1 := cmpi .slt main_arg1 main_v18
  let main_c_7 : IVec S_ 1 := constantI S_ 1 1#1
  let main_v20 : IVec S_ 1 := (fun x v => Host.reduce IntOp.andi x v reducesTo_S320000_S_d0 h_S_) main_v19 main_c_7
  let main_v21 : IVec S_ 1 := andi main_v17 main_v20
  main_v21

def fn {F : FTy → Type} [FloatOps F] (main_arg0 : FVec F S320000 .f32) (main_arg1 : IVec S320000 32) (main_arg2 : FVec F S8x256 .f32) (main_arg3 : FVec F S8x256 .f32) : IVec S_ 1 :=
  let main_v0 : FVec F S320000 .f32 := Host.absf main_arg0
  let main_cst : FVec F S_ .f32 := constant S_ .f32 0x7F800000#32
  let main_v1 : FVec F S320000 .f32 := broadcastInDim S320000 ![] bcast_S_S320000 main_cst
  let main_v2 : IVec S320000 1 := cmpf .olt main_v0 main_v1
  let main_c : IVec S_ 1 := constantI S_ 1 1#1
  let main_v3 : IVec S_ 1 := (fun x v => Host.reduce IntOp.andi x v reducesTo_S320000_S_d0 h_S_) main_v2 main_c
  let main_v4 : FVec F S8x256 .f32 := Host.absf main_arg2
  let main_cst_0 : FVec F S_ .f32 := constant S_ .f32 0x7F800000#32
  let main_v5 : FVec F S8x256 .f32 := broadcastInDim S8x256 ![] bcast_S_S8x256 main_cst_0
  let main_v6 : IVec S8x256 1 := cmpf .olt main_v4 main_v5
  let main_c_1 : IVec S_ 1 := constantI S_ 1 1#1
  let main_v7 : IVec S_ 1 := (fun x v => Host.reduce IntOp.andi x v reducesTo_S8x256_S_d0_1 h_S_) main_v6 main_c_1
  let main_v8 : IVec S_ 1 := andi main_v3 main_v7
  let main_v9 : FVec F S8x256 .f32 := Host.absf main_arg3
  let main_cst_2 : FVec F S_ .f32 := constant S_ .f32 0x7F800000#32
  let main_v10 : FVec F S8x256 .f32 := broadcastInDim S8x256 ![] bcast_S_S8x256 main_cst_2
  let main_v11 : IVec S8x256 1 := cmpf .olt main_v9 main_v10
  let main_c_3 : IVec S_ 1 := constantI S_ 1 1#1
  let main_v12 : IVec S_ 1 := (fun x v => Host.reduce IntOp.andi x v reducesTo_S8x256_S_d0_1 h_S_) main_v11 main_c_3
  let main_v13 : IVec S_ 1 := andi main_v8 main_v12
  let main_c_4 : IVec S_ 32 := constantI S_ 32 0#32
  let main_v14 : IVec S320000 32 := broadcastInDim S320000 ![] bcast_S_S320000 main_c_4
  let main_v15 : IVec S320000 1 := cmpi .sge main_arg1 main_v14
  let main_c_5 : IVec S_ 1 := constantI S_ 1 1#1
  fn_part1 (F := F) main_arg1 main_v13 main_v15 main_c_5
-- ==== Kernel.lean ====
abbrev S320000 : Shape := ⟨1, ![320000]⟩
abbrev S8x256 : Shape := ⟨2, ![8, 256]⟩
abbrev S16x256 : Shape := ⟨2, ![16, 256]⟩
abbrev S320000x1 : Shape := ⟨2, ![320000, 1]⟩
abbrev S320000x256 : Shape := ⟨2, ![320000, 256]⟩
abbrev S1280x1 : Shape := ⟨2, ![1280, 1]⟩
abbrev S1280x256 : Shape := ⟨2, ![1280, 256]⟩
abbrev S1280x16 : Shape := ⟨2, ![1280, 16]⟩

abbrev nBuf : Space → Nat
  | .hbm => 8
  | .vmem => 7
  | .smem => 0
  | _ => 0

abbrev bufTy : (tb : Table) → Fin (tcTables nBuf tb) → BufTy
  | .hbm, ⟨0, _⟩ => ⟨S320000, .f32⟩
  | .hbm, ⟨1, _⟩ => ⟨S320000, .i32⟩
  | .hbm, ⟨2, _⟩ => ⟨S8x256, .f32⟩
  | .hbm, ⟨3, _⟩ => ⟨S8x256, .f32⟩
  | .hbm, ⟨4, _⟩ => ⟨S16x256, .f32⟩
  | .hbm, ⟨5, _⟩ => ⟨S320000x1, .f32⟩
  | .hbm, ⟨6, _⟩ => ⟨S320000x1, .i32⟩
  | .hbm, ⟨7, _⟩ => ⟨S320000x256, .f32⟩
  | .local _ .vmem, ⟨0, _⟩ => ⟨S1280x1, .f32⟩
  | .local _ .vmem, ⟨1, _⟩ => ⟨S1280x1, .f32⟩
  | .local _ .vmem, ⟨2, _⟩ => ⟨S1280x1, .i32⟩
  | .local _ .vmem, ⟨3, _⟩ => ⟨S1280x1, .i32⟩
  | .local _ .vmem, ⟨4, _⟩ => ⟨S16x256, .f32⟩
  | .local _ .vmem, ⟨5, _⟩ => ⟨S1280x256, .f32⟩
  | .local _ .vmem, ⟨6, _⟩ => ⟨S1280x256, .f32⟩
  | _, _ => ⟨S320000, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![250], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1280x1 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1280x1 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S16x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1280x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  concatenates_S8x256_S8x256_S16x256_d0 : Shape.Concatenates [S8x256, S8x256] S16x256 0
  shapeCasts_S320000_S320000x1 : S320000.ShapeCasts S320000x1
  inb_S1280x1_S1280x1_0_0 : ∀ a, (![0, 0] : Fin 2 → Nat) a + S1280x1.size a ≤ S1280x1.size a
  h_S1280x1 : 0 < S1280x1.numel
  shapeCasts_S1280x1_S1280x1 : S1280x1.ShapeCasts S1280x1
  iota_S1280x16_d1_w32 : S1280x16.Iotas .tc 32 [1]
  broadcasts_S1280x1_S1280x16 : S1280x1.Broadcasts S1280x16
  inb_S16x256_S16x256_0_0 : ∀ a, (![0, 0] : Fin 2 → Nat) a + S16x256.size a ≤ S16x256.size a
  h_S16x256 : 0 < S16x256.numel
  shapeCasts_S16x256_S16x256 : S16x256.ShapeCasts S16x256
  inb_S1280x256_S1280x256_0_0 : ∀ a, (![0, 0] : Fin 2 → Nat) a + S1280x256.size a ≤ S1280x256.size a
  h_S1280x256 : 0 < S1280x256.numel
  dot_S1280x16_S16x256_S1280x256_1_0_0_1_n_n_wf : DotDims.WF S1280x16 S16x256 S1280x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1280x1.size a ≤ S320000x1.size a
  hwx0_0 : ∀ i : grid0.Coords, EltTy.bits .f32 = 32 ∨ (Rect.block (s := S320000x1) S1280x1.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1280x1.size a ≤ S320000x1.size a
  hwx0_1 : ∀ i : grid0.Coords, EltTy.bits .i32 = 32 ∨ (Rect.block (s := S320000x1) S1280x1.size (cc0_transform_1 i) (hinb0_1 i)).WholeWords (EltTy.packing .i32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S16x256.size a ≤ S16x256.size a
  hwx0_2 : ∀ i : grid0.Coords, EltTy.bits .f32 = 32 ∨ (Rect.block (s := S16x256) S16x256.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1280x256.size a ≤ S320000x256.size a
  hwx0_3 : ∀ i : grid0.Coords, EltTy.bits .f32 = 32 ∨ (Rect.block (s := S320000x256) S1280x256.size (cc0_transform_3 i) (hinb0_3 i)).WholeWords (EltTy.packing .f32)

variable [Facts₀]

def dot_S1280x16_S16x256_S1280x256_1_0_0_1_n_n : DotDims S1280x16 S16x256 S1280x256 where
  lhsContracting := [1]
  rhsContracting := [0]
  lhsNonContracting := [0]
  rhsNonContracting := [1]
  lhsBatch := []
  rhsBatch := []
  wf := dot_S1280x16_S16x256_S1280x256_1_0_0_1_n_n_wf

abbrev win0_0 : Pipeline.Window sig grid0 :=
  Pipeline.Window.ofSpec (Memref.whole main_v1) S1280x1.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v2) S1280x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S16x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v3) S1280x256.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S320000 : Shape := ⟨1, ![320000]⟩
abbrev S8x256 : Shape := ⟨2, ![8, 256]⟩
abbrev S_ : Shape := ⟨0, ![]⟩
abbrev S320000x1 : Shape := ⟨2, ![320000, 1]⟩
abbrev S1 : Shape := ⟨1, ![1]⟩
abbrev S1x1 : Shape := ⟨2, ![1, 1]⟩
abbrev S320000x256 : Shape := ⟨2, ![320000, 256]⟩

abbrev nBuf : Space → Nat
  | .hbm => 55
  | .vmem => 0
  | .smem => 0
  | _ => 0

abbrev bufTy : (tb : Table) → Fin (tcTables nBuf tb) → BufTy
  | .hbm, ⟨0, _⟩ => ⟨S320000, .f32⟩
  | .hbm, ⟨1, _⟩ => ⟨S320000, .i32⟩
  | .hbm, ⟨2, _⟩ => ⟨S8x256, .f32⟩
  | .hbm, ⟨3, _⟩ => ⟨S8x256, .f32⟩
  | .hbm, ⟨4, _⟩ => ⟨S_, .i32⟩
  | .hbm, ⟨5, _⟩ => ⟨S320000, .i32⟩
  | .hbm, ⟨6, _⟩ => ⟨S320000, .i1⟩
  | .hbm, ⟨7, _⟩ => ⟨S_, .i32⟩
  | .hbm, ⟨8, _⟩ => ⟨S320000, .i32⟩
  | .hbm, ⟨9, _⟩ => ⟨S320000, .i32⟩
  | .hbm, ⟨10, _⟩ => ⟨S320000, .i32⟩
  | .hbm, ⟨11, _⟩ => ⟨S320000x1, .i32⟩
  | .hbm, ⟨12, _⟩ => ⟨S1, .i32⟩
  | .hbm, ⟨13, _⟩ => ⟨S_, .i32⟩
  | .hbm, ⟨14, _⟩ => ⟨S320000x1, .i32⟩
  | .hbm, ⟨15, _⟩ => ⟨S320000x1, .i1⟩
  | .hbm, ⟨16, _⟩ => ⟨S1x1, .i32⟩
  | .hbm, ⟨17, _⟩ => ⟨S320000x1, .i32⟩
  | .hbm, ⟨18, _⟩ => ⟨S320000x1, .i1⟩
  | .hbm, ⟨19, _⟩ => ⟨S320000x1, .i1⟩
  | .hbm, ⟨20, _⟩ => ⟨S_, .i1⟩
  | .hbm, ⟨21, _⟩ => ⟨S320000, .i1⟩
  | .hbm, ⟨22, _⟩ => ⟨S320000x256, .f32⟩
  | .hbm, ⟨23, _⟩ => ⟨S320000x256, .i1⟩
  | .hbm, ⟨24, _⟩ => ⟨S_, .f32⟩
  | .hbm, ⟨25, _⟩ => ⟨S320000x256, .f32⟩
  | .hbm, ⟨26, _⟩ => ⟨S320000x256, .f32⟩
  | .hbm, ⟨27, _⟩ => ⟨S_, .i32⟩
  | .hbm, ⟨28, _⟩ => ⟨S320000, .i32⟩
  | .hbm, ⟨29, _⟩ => ⟨S320000, .i1⟩
  | .hbm, ⟨30, _⟩ => ⟨S_, .i32⟩
  | .hbm, ⟨31, _⟩ => ⟨S320000, .i32⟩
  | .hbm, ⟨32, _⟩ => ⟨S320000, .i32⟩
  | .hbm, ⟨33, _⟩ => ⟨S320000, .i32⟩
  | .hbm, ⟨34, _⟩ => ⟨S320000x1, .i32⟩
  | .hbm, ⟨35, _⟩ => ⟨S1, .i32⟩
  | .hbm, ⟨36, _⟩ => ⟨S_, .i32⟩
  | .hbm, ⟨37, _⟩ => ⟨S320000x1, .i32⟩
  | .hbm, ⟨38, _⟩ => ⟨S320000x1, .i1⟩
  | .hbm, ⟨39, _⟩ => ⟨S1x1, .i32⟩
  | .hbm, ⟨40, _⟩ => ⟨S320000x1, .i32⟩
  | .hbm, ⟨41, _⟩ => ⟨S320000x1, .i1⟩
  | .hbm, ⟨42, _⟩ => ⟨S320000x1, .i1⟩
  | .hbm, ⟨43, _⟩ => ⟨S_, .i1⟩
  | .hbm, ⟨44, _⟩ => ⟨S320000, .i1⟩
  | .hbm, ⟨45, _⟩ => ⟨S320000x256, .f32⟩
  | .hbm, ⟨46, _⟩ => ⟨S320000x256, .i1⟩
  | .hbm, ⟨47, _⟩ => ⟨S_, .f32⟩
  | .hbm, ⟨48, _⟩ => ⟨S320000x256, .f32⟩
  | .hbm, ⟨49, _⟩ => ⟨S320000x256, .f32⟩
  | .hbm, ⟨50, _⟩ => ⟨S320000x1, .f32⟩
  | .hbm, ⟨51, _⟩ => ⟨S320000x256, .f32⟩
  | .hbm, ⟨52, _⟩ => ⟨S320000x256, .f32⟩
  | .hbm, ⟨53, _⟩ => ⟨S320000x256, .f32⟩
  | .hbm, ⟨54, _⟩ => ⟨S320000x256, .f32⟩
  | _, _ => ⟨S320000, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_call0_c : Ref sig .tc := ⟨.hbm, 4, rfl⟩
abbrev main_call0_v0 : Ref sig .tc := ⟨.hbm, 5, rfl⟩
abbrev main_call0_v1 : Ref sig .tc := ⟨.hbm, 6, rfl⟩
abbrev main_call0_c_0 : Ref sig .tc := ⟨.hbm, 7, rfl⟩
abbrev main_call0_v2 : Ref sig .tc := ⟨.hbm, 8, rfl⟩
abbrev main_call0_v3 : Ref sig .tc := ⟨.hbm, 9, rfl⟩
abbrev main_call0_v4 : Ref sig .tc := ⟨.hbm, 10, rfl⟩
abbrev main_call0_v5 : Ref sig .tc := ⟨.hbm, 11, rfl⟩
abbrev main_call0_c_1 : Ref sig .tc := ⟨.hbm, 12, rfl⟩
abbrev main_call0_c_2 : Ref sig .tc := ⟨.hbm, 13, rfl⟩
abbrev main_call0_v6 : Ref sig .tc := ⟨.hbm, 14, rfl⟩
abbrev main_call0_v7 : Ref sig .tc := ⟨.hbm, 15, rfl⟩
abbrev main_call0_v8 : Ref sig .tc := ⟨.hbm, 16, rfl⟩
abbrev main_call0_v9 : Ref sig .tc := ⟨.hbm, 17, rfl⟩
abbrev main_call0_v10 : Ref sig .tc := ⟨.hbm, 18, rfl⟩
abbrev main_call0_v11 : Ref sig .tc := ⟨.hbm, 19, rfl⟩
abbrev main_call0_c_3 : Ref sig .tc := ⟨.hbm, 20, rfl⟩
abbrev main_call0_v12 : Ref sig .tc := ⟨.hbm, 21, rfl⟩
abbrev main_call0_v13 : Ref sig .tc := ⟨.hbm, 22, rfl⟩
abbrev main_call0_v14 : Ref sig .tc := ⟨.hbm, 23, rfl⟩
abbrev main_call0_cst : Ref sig .tc := ⟨.hbm, 24, rfl⟩
abbrev main_call0_v15 : Ref sig .tc := ⟨.hbm, 25, rfl⟩
abbrev main_v0 : Ref sig .tc := ⟨.hbm, 26, rfl⟩
abbrev main_call1_c : Ref sig .tc := ⟨.hbm, 27, rfl⟩
abbrev main_call1_v0 : Ref sig .tc := ⟨.hbm, 28, rfl⟩
abbrev main_call1_v1 : Ref sig .tc := ⟨.hbm, 29, rfl⟩
abbrev main_call1_c_0 : Ref sig .tc := ⟨.hbm, 30, rfl⟩
abbrev main_call1_v2 : Ref sig .tc := ⟨.hbm, 31, rfl⟩
abbrev main_call1_v3 : Ref sig .tc := ⟨.hbm, 32, rfl⟩
abbrev main_call1_v4 : Ref sig .tc := ⟨.hbm, 33, rfl⟩
abbrev main_call1_v5 : Ref sig .tc := ⟨.hbm, 34, rfl⟩
abbrev main_call1_c_1 : Ref sig .tc := ⟨.hbm, 35, rfl⟩
abbrev main_call1_c_2 : Ref sig .tc := ⟨.hbm, 36, rfl⟩
abbrev main_call1_v6 : Ref sig .tc := ⟨.hbm, 37, rfl⟩
abbrev main_call1_v7 : Ref sig .tc := ⟨.hbm, 38, rfl⟩
abbrev main_call1_v8 : Ref sig .tc := ⟨.hbm, 39, rfl⟩
abbrev main_call1_v9 : Ref sig .tc := ⟨.hbm, 40, rfl⟩
abbrev main_call1_v10 : Ref sig .tc := ⟨.hbm, 41, rfl⟩
abbrev main_call1_v11 : Ref sig .tc := ⟨.hbm, 42, rfl⟩
abbrev main_call1_c_3 : Ref sig .tc := ⟨.hbm, 43, rfl⟩
abbrev main_call1_v12 : Ref sig .tc := ⟨.hbm, 44, rfl⟩
abbrev main_call1_v13 : Ref sig .tc := ⟨.hbm, 45, rfl⟩
abbrev main_call1_v14 : Ref sig .tc := ⟨.hbm, 46, rfl⟩
abbrev main_call1_cst : Ref sig .tc := ⟨.hbm, 47, rfl⟩
abbrev main_call1_v15 : Ref sig .tc := ⟨.hbm, 48, rfl⟩
abbrev main_v1 : Ref sig .tc := ⟨.hbm, 49, rfl⟩
abbrev main_v2 : Ref sig .tc := ⟨.hbm, 50, rfl⟩
abbrev main_v3 : Ref sig .tc := ⟨.hbm, 51, rfl⟩
abbrev main_v4 : Ref sig .tc := ⟨.hbm, 52, rfl⟩
abbrev main_v5 : Ref sig .tc := ⟨.hbm, 53, rfl⟩
abbrev main_v6 : Ref sig .tc := ⟨.hbm, 54, rfl⟩

abbrev nD : Nat := 1
abbrev τ : Topo := Topo.v7x

variable {F : FTy → Type} [FloatOps F]

class Facts₀ : Prop where
  bcast_S_S320000 : S_.BroadcastsInDim S320000 (![] : Fin 0 → Fin S320000.rank)
  bcast_S320000_S320000x1_0 : S320000.BroadcastsInDim S320000x1 (![0] : Fin 1 → Fin S320000x1.rank)
  bcast_S_S320000x1 : S_.BroadcastsInDim S320000x1 (![] : Fin 0 → Fin S320000x1.rank)
  bcast_S1_S1x1_1 : S1.BroadcastsInDim S1x1 (![1] : Fin 1 → Fin S1x1.rank)
  bcast_S1x1_S320000x1_0_1 : S1x1.BroadcastsInDim S320000x1 (![0, 1] : Fin 2 → Fin S320000x1.rank)
  reducesTo_S320000x1_S320000_d1 : S320000x1.ReducesTo [1] S320000
  h_S_ : 0 < S_.numel
  bcast_S320000_S320000x256_0 : S320000.BroadcastsInDim S320000x256 (![0] : Fin 1 → Fin S320000x256.rank)
  bcast_S_S320000x256 : S_.BroadcastsInDim S320000x256 (![] : Fin 0 → Fin S320000x256.rank)
  bcast_S320000x1_S320000x256_0_1 : S320000x1.BroadcastsInDim S320000x256 (![0, 1] : Fin 2 → Fin S320000x256.rank)
  gather_S8x256_S320000x1_S320000x256_1_0_n_n_0_1_1256_wf : GatherDims.WF S8x256 S320000x1 S320000x256 [1] [0] [] [0] [] 1 ![1, 256]

variable [Facts₀]

def gather_S8x256_S320000x1_S320000x256_1_0_n_n_0_1_1256 : GatherDims S8x256 S320000x1 S320000x256 where
  offsetDims := [1]
  collapsedSliceDims := [0]
  operandBatchingDims := []
  startIndicesBatchingDims := []
  startIndexMap := [0]
  indexVectorDim := 1
  sliceSizes := ![1, 256]
  wf := gather_S8x256_S320000x1_S320000x256_1_0_n_n_0_1_1256_wf

class Facts : Prop extends Facts₀ where

variable [Facts]
-- ==== Proof.Spec.lean ====
/-
  The specification both programs meet: a time encoding per edge and per feature.

  Edge `e` carries a timestamp `ts e` and a type `tp e`; the type selects one of eight rows of a frequency
  table `W` and of a phase table `b`, and feature `d` of the edge's encoding is
  `cos (ts e · W[tp e, d] + b[tp e, d])` on the extended reals. The type is read as a table row by its value
  modulo eight, which is its value whenever the type lies in `[0, 8)`, the only case either program is asked about.
-/
import Idealize.ShloMosaic.PureOps.Ideal
import Idealize.ShloMosaic.Lib.ValueIdx

noncomputable section

namespace Cert.TimeEncode

open Idealize.ShloMosaic Idealize.ShloMosaic.ValueIdx

/-- The table row an edge type names: its value modulo eight (its value itself for a type in `[0, 8)`). -/
def row (v : BitVec 32) : Fin 8 := ⟨v.toNat % 8, Nat.mod_lt _ (by decide)⟩

theorem row_val_of_lt (v : BitVec 32) (h : v.toNat < 8) : (row v).val = v.toNat := Nat.mod_eq_of_lt h

/-- Feature `d` of edge `e`'s encoding: `cos (ts e · W[tp e, d] + b[tp e, d])`. -/
def encAt (ts : (⟨1, ![320000]⟩ : Shape).Idx → EReal) (tp : (⟨1, ![320000]⟩ : Shape).Idx → BitVec 32)
    (W b : (⟨2, ![8, 256]⟩ : Shape).Idx → EReal) (e : Fin 320000) (d : Fin 256) : EReal :=
  Ideal.cos (ts (ix1 e) * W (ix2 (row (tp (ix1 e))) d) + b (ix2 (row (tp (ix1 e))) d))

/-- The whole encoding, one entry per edge and feature. -/
def enc (ts : (⟨1, ![320000]⟩ : Shape).Idx → EReal) (tp : (⟨1, ![320000]⟩ : Shape).Idx → BitVec 32)
    (W b : (⟨2, ![8, 256]⟩ : Shape).Idx → EReal) : (⟨2, ![320000, 256]⟩ : Shape).Idx → EReal :=
  fun i => encAt ts tp W b ⟨(i 0).val, idx2_lt0 i⟩ ⟨(i 1).val, idx2_lt1 i⟩

theorem enc_ix2 (ts : (⟨1, ![320000]⟩ : Shape).Idx → EReal) (tp : (⟨1, ![320000]⟩ : Shape).Idx → BitVec 32)
    (W b : (⟨2, ![8, 256]⟩ : Shape).Idx → EReal) (e : Fin 320000) (d : Fin 256) :
    enc ts tp W b (ix2 e d) = encAt ts tp W b e d := rfl

/-- A whole array is the encoding as soon as it is so entry by entry. -/
theorem eq_enc_of_forall (ts : (⟨1, ![320000]⟩ : Shape).Idx → EReal) (tp : (⟨1, ![320000]⟩ : Shape).Idx → BitVec 32)
    (W b : (⟨2, ![8, 256]⟩ : Shape).Idx → EReal) (x : (⟨2, ![320000, 256]⟩ : Shape).Idx → EReal)
    (h : ∀ (e : Fin 320000) (d : Fin 256), x (ix2 e d) = encAt ts tp W b e d) : x = enc ts tp W b := by
  funext i
  obtain ⟨e, d, rfl⟩ : ∃ (e : Fin 320000) (d : Fin 256), i = ix2 e d := ⟨i 0, i 1, eq_ix2 i⟩
  rw [h e d, enc_ix2]

end Cert.TimeEncode

end
-- ==== Proof.PreRange.lean ====
/-
  What the precondition says of the edge types. Besides the finiteness of the float inputs the precondition asks
  `0 ≤ type` and `type < 8` of every edge, each as an `and` over all 320000 comparison bits. A conjunction of bits
  that is one has every bit one, so each edge's type, read as a signed word, lies in `[0, 8)`; such a word read
  unsigned is the same number, below eight.
-/
import proofs.«142996_g13769665151128_cont_week2b_1496_2_alg».proof.Proof.Gen.Pre_finite_inputs
import Idealize.ShloMosaic.Lib.ReduceAll
import Idealize.ShloMosaic.Lib.ValueIdx

noncomputable section

namespace Cert.TimeEncode.PreRange

open Idealize.ShloMosaic Idealize.ShloMosaic.ValueIdx Cert.Pre_finite_inputs

instance : Subsingleton Cert.Pre_finite_inputs.S_.Idx := ⟨fun a b => funext fun d => d.elim0⟩

/-- A 32-bit word whose signed reading lies in `[0, 8)` reads unsigned below eight. -/
theorem toNat_lt_of_toInt (v : BitVec 32) (h0 : 0 ≤ v.toInt) (h8 : v.toInt < 8) : v.toNat < 8 := by
  have hv := v.isLt
  rw [BitVec.toInt_eq_toNat_cond] at h0 h8
  by_cases hc : 2 * v.toNat < 2 ^ 32
  · rw [if_pos hc] at h8
    omega
  · rw [if_neg hc] at h0
    omega

/-- THE RANGE OF THE TYPES: under the precondition every edge's type is below eight (read unsigned). -/
theorem range_of_pre {F : FTy → Type} [FloatOps F] (a0 : FVec F S320000 .f32) (a1 : IVec S320000 32)
    (a2 a3 : FVec F S8x256 .f32) (h : Cert.Pre_finite_inputs.fn (F := F) a0 a1 a2 a3 = fun _ => 1#1) (e : Fin 320000) :
    (a1 (ix1 e)).toNat < 8 := by
  have h0 := congrFun h ix0
  dsimp only [fn, fn_part1] at h0
  obtain ⟨h1, hlt⟩ := IntOp.andi_eq_one.1 h0
  obtain ⟨_, hge⟩ := IntOp.andi_eq_one.1 h1
  have lt := Host.reduce_andi_all _ _ _ _ _ hlt (ix1 e)
  have ge := Host.reduce_andi_all _ _ _ _ _ hge (ix1 e)
  have lt' : (a1 (ix1 e)).toInt < (8#32 : BitVec 32).toInt := IntOp.cmpi_slt.1 lt
  have ge' : (0#32 : BitVec 32).toInt ≤ (a1 (ix1 e)).toInt := IntOp.cmpi_sge.1 ge
  have e8 : (8#32 : BitVec 32).toInt = 8 := by decide
  have e0 : (0#32 : BitVec 32).toInt = 0 := by decide
  rw [e8] at lt'
  rw [e0] at ge'
  exact toNat_lt_of_toInt _ ge' lt'

end Cert.TimeEncode.PreRange

end
-- ==== Proof.OneHot.lean ====
/-
  The one-hot product. The kernel does not look a table row up: per edge it forms sixteen coefficients
  `a k`, `k < 16`, from the edge's timestamp `ts` and type `tp` —
  `a k = (if k < 8 then ts else 1)` when `k mod 8 = tp`, and `0` otherwise — and multiplies them into the sixteen
  stacked rows `M` (the eight frequency rows above the eight phase rows). For a type in `[0, 8)` exactly two
  coefficients are not zero, `a tp = ts` and `a (tp + 8) = 1`, so the product is `ts · M[tp] + M[tp + 8]`:
  a zero coefficient kills its term on the extended reals whatever the row holds (`0 · x = 0` there, also at the
  infinities), and a finite sum on the extended reals may be taken in any order.
-/
import Idealize.ShloMosaic.PureOps.Ideal
import Idealize.ShloMosaic.PureOps.Ideal.Laws

noncomputable section

namespace Cert.TimeEncode

open Idealize.ShloMosaic

/-- The word of the float `1.0` denotes the real `1`. -/
theorem ofBits_one_f32 : Ideal.ofBits .f32 0x3F800000#32 = 1 := by
  simp [Ideal.ofBits, Ideal.ieee]
  rw [← EReal.coe_mul, ← EReal.coe_one]
  congr 1
  norm_num

/-- Coefficient `k` of an edge with timestamp `ts` and type `tp`, as the kernel's selects spell it:
    `ts` or `1` (by `k < 8`) where `k mod 8 = tp`, else `0`. -/
def coef (ts : EReal) (tp : BitVec 32) (k : Fin 16) : EReal :=
  Scalar.select (IntOp.cmpi .eq (IntOp.andi (BitVec.ofNat 32 k.val) 7#32) tp)
    (Scalar.select (IntOp.cmpi .slt (BitVec.ofNat 32 k.val) 8#32) ts (Ideal.ofBits .f32 0x3F800000#32))
    (Ideal.ofBits .f32 0x00000000#32)

/-- Which coefficients are selected, for a type `n < 8`: the two columns `n` and `n + 8`. -/
theorem hit_iff : ∀ (n : Fin 8) (k : Fin 16),
    IntOp.cmpi .eq (IntOp.andi (BitVec.ofNat 32 k.val) 7#32) (BitVec.ofNat 32 n.val) = (1 : BitVec 1) ↔ (k.val = n.val ∨ k.val = n.val + 8) := by
  decide

/-- The first eight columns carry the timestamp, the last eight the constant one. -/
theorem low_iff : ∀ k : Fin 16, IntOp.cmpi .slt (BitVec.ofNat 32 k.val) 8#32 = (1 : BitVec 1) ↔ k.val < 8 := by
  decide

theorem coef_eq (ts : EReal) (n : Fin 8) (k : Fin 16) :
    coef ts (BitVec.ofNat 32 n.val) k = if k.val = n.val then ts else if k.val = n.val + 8 then 1 else 0 := by
  unfold coef Scalar.select
  rw [ofBits_one_f32, Ideal.ofBits_zero_f32]
  by_cases h1 : k.val = n.val
  · have a := (hit_iff n k).mpr (Or.inl h1)
    have b := (low_iff k).mpr (by omega)
    rw [if_pos a, if_pos b, if_pos h1]
  · by_cases h2 : k.val = n.val + 8
    · have a := (hit_iff n k).mpr (Or.inr h2)
      have b : ¬ IntOp.cmpi .slt (BitVec.ofNat 32 k.val) 8#32 = (1 : BitVec 1) := fun h => by
        have := (low_iff k).mp h; omega
      rw [if_pos a, if_neg b, if_neg h1, if_pos h2]
    · have a : ¬ IntOp.cmpi .eq (IntOp.andi (BitVec.ofNat 32 k.val) 7#32) (BitVec.ofNat 32 n.val) = (1 : BitVec 1) := fun h => by
        rcases (hit_iff n k).mp h with h | h <;> omega
      rw [if_neg a, if_neg h1, if_neg h2]

/-- The one-hot product for a type given as a number below eight. -/
theorem sum_coef_fin (ts : EReal) (n : Fin 8) (M : Fin 16 → EReal) :
    ∑ k : Fin 16, coef ts (BitVec.ofNat 32 n.val) k * M k = ts * M ⟨n.val, by omega⟩ + M ⟨n.val + 8, by omega⟩ := by
  have hne : (⟨n.val, by omega⟩ : Fin 16) ≠ ⟨n.val + 8, by omega⟩ := fun e => by
    have := congrArg Fin.val e; simp at this
  rw [Finset.sum_eq_add (⟨n.val, by omega⟩ : Fin 16) ⟨n.val + 8, by omega⟩ hne
    (fun k _ hk => by
      rw [coef_eq, if_neg (fun e => hk.1 (Fin.ext e)), if_neg (fun e => hk.2 (Fin.ext e)), zero_mul])
    (fun hn => absurd (Finset.mem_univ _) hn) (fun hn => absurd (Finset.mem_univ _) hn)]
  rw [coef_eq, coef_eq, if_pos rfl, if_neg (by simp), if_pos rfl, one_mul]

/-- THE ONE-HOT PRODUCT: for a type in `[0, 8)` the sixteen-term product is the timestamp times the type's frequency
    row plus the type's phase row. -/
theorem sum_coef (ts : EReal) (tp : BitVec 32) (h : tp.toNat < 8) (M : Fin 16 → EReal) :
    ∑ k : Fin 16, coef ts tp k * M k = ts * M ⟨tp.toNat, by omega⟩ + M ⟨tp.toNat + 8, by omega⟩ := by
  have key := sum_coef_fin ts ⟨tp.toNat, h⟩ M
  have htp : BitVec.ofNat 32 tp.toNat = tp := by simp
  dsimp only at key
  rw [htp] at key
  exact key

end Cert.TimeEncode

end
-- ==== Proof.KernelPay.lean ====
/-
  What the kernel's body computes for one block of 1280 edges, read entry by entry.

  The body loads the block's timestamps `x0` and types `x1` (columns of height 1280) and the sixteen stacked
  table rows `x2`, builds the 1280 × 16 coefficient matrix whose row `p` is the one-hot coefficient vector of edge
  `p` (`Cert.TimeEncode.coef`), multiplies it into `x2` and takes the cosine. Entry `(p, q)` of what it stores is
  therefore `cos (∑ k, coef (x0 p) (x1 p) k · x2[k, q])`: a matrix product into a zero accumulator is the plain sum
  over the contracted axis on the extended reals.
-/
import proofs.«142996_g13769665151128_cont_week2b_1496_2_alg».proof.Proof.Gen.KernelIdeal.Skeleton
import proofs.«142996_g13769665151128_cont_week2b_1496_2_alg».proof.Proof.OneHot
import Idealize.ShloMosaic.Lib.ValueIdx
import Idealize.ShloMosaic.Lib.Pipeline.Value
import Idealize.ShloMosaic.PureOps.Ideal.Laws

noncomputable section

namespace Cert.KernelIdeal.Pay

open Cert.KernelIdeal Cert.KernelIdeal.Gen Idealize.ShloMosaic Idealize.ShloMosaic.ValueIdx Cert.TimeEncode

/-- The coefficient matrix of a block: row `p` holds edge `p`'s sixteen coefficients. -/
def lhs (x0 : Vec Ideal S1280x1 .f32) (x1 : Vec Ideal S1280x1 .i32) : FVec Ideal S1280x16 .f32 :=
  select (cmpi .eq (andi (iota .tc S1280x16 32 [1] iota_S1280x16_d1_w32) (broadcast S1280x16 7#32))
      (broadcastTo S1280x16 x1 broadcasts_S1280x1_S1280x16))
    (select (cmpi .slt (iota .tc S1280x16 32 [1] iota_S1280x16_d1_w32) (broadcast S1280x16 8#32))
      (broadcastTo S1280x16 x0 broadcasts_S1280x1_S1280x16)
      (broadcast S1280x16 (Scalar.ofBits (F := Ideal) .f32 0x3F800000#32)))
    (broadcast S1280x16 (Scalar.ofBits (F := Ideal) .f32 0x00000000#32))

/-- A column of height 1280 broadcast along sixteen lanes reads its row. -/
theorem bcast_col {α : Type} (x : S1280x1.Idx → α) (p : Fin 1280) (k : Fin 16) :
    broadcastTo S1280x16 x broadcasts_S1280x1_S1280x16 (ix2 p k) = x (ix2 p 0) :=
  broadcastTo_apply x broadcasts_S1280x1_S1280x16 (ix2 p k) (ix2 p 0) (fun a => by
    match a with
    | ⟨0, _⟩ => rfl
    | ⟨1, _⟩ => rfl)

/-- Row `p`, column `k` of the coefficient matrix is coefficient `k` of edge `p`. -/
theorem lhs_apply (x0 : Vec Ideal S1280x1 .f32) (x1 : Vec Ideal S1280x1 .i32) (p : Fin 1280) (k : Fin 16) :
    lhs x0 x1 (ix2 p k) = coef (x0 (ix2 p 0)) (x1 (ix2 p 0)) k := by
  have hi : iota .tc S1280x16 32 [1] iota_S1280x16_d1_w32 (ix2 p k) = BitVec.ofNat 32 k.val :=
    iota_single_apply .tc S1280x16 32 1 iota_S1280x16_d1_w32 (ix2 p k)
  unfold lhs coef
  simp only [select_apply, cmpi, andi, broadcast_apply, bcast_col]
  rw [hi]
  rfl

/-- The body's stored value is the cosine of the coefficient matrix times the stacked rows. -/
theorem pay_eq (x0 : Vec Ideal S1280x1 .f32) (x1 : Vec Ideal S1280x1 .i32) (x2 : FVec Ideal S16x256 .f32) :
    k0_pay1 (F := Ideal) x0 x1 x2
      = cos (matmul dot_S1280x16_S16x256_S1280x256_1_0_0_1_n_n none (lhs x0 x1) x2 (constant S1280x256 .f32 0x00000000#32)) := by
  unfold k0_pay1 lhs
  simp only [shapeCast_self]

/-- The left operand's index at output entry `(p, q)` and contraction position `k` is `(p, k)`. -/
theorem lhsIdx_eq (p : Fin 1280) (q : Fin 256) (k : Fin 16) :
    dot_S1280x16_S16x256_S1280x256_1_0_0_1_n_n.lhsIdx (ix2 p q)
      ((contrEquiv1 dot_S1280x16_S16x256_S1280x256_1_0_0_1_n_n 16 rfl rfl).symm k) = ix2 p k := by
  funext a
  apply Fin.ext
  match a with
  | ⟨0, _⟩ => rfl
  | ⟨1, _⟩ =>
    exact (dot_S1280x16_S16x256_S1280x256_1_0_0_1_n_n.lhsIdx_val_of_single (cl := 1) rfl _ _).trans
      (contrEquiv1_symm_val dot_S1280x16_S16x256_S1280x256_1_0_0_1_n_n 16 rfl rfl k)

/-- The right operand's index there is `(k, q)`. -/
theorem rhsIdx_eq (p : Fin 1280) (q : Fin 256) (k : Fin 16) :
    dot_S1280x16_S16x256_S1280x256_1_0_0_1_n_n.rhsIdx (ix2 p q)
      ((contrEquiv1 dot_S1280x16_S16x256_S1280x256_1_0_0_1_n_n 16 rfl rfl).symm k) = ix2 k q := by
  funext a
  apply Fin.ext
  match a with
  | ⟨0, _⟩ =>
    exact (dot_S1280x16_S16x256_S1280x256_1_0_0_1_n_n.rhsIdx_val_of_single (cr := 0) rfl _ _).trans
      (contrEquiv1_symm_val dot_S1280x16_S16x256_S1280x256_1_0_0_1_n_n 16 rfl rfl k)
  | ⟨1, _⟩ => rfl

/-- THE BODY'S VALUE AT AN ENTRY: `cos` of the one-hot product of edge `p`'s coefficients with column `q` of the
    stacked rows. -/
theorem pay_apply (x0 : Vec Ideal S1280x1 .f32) (x1 : Vec Ideal S1280x1 .i32) (x2 : FVec Ideal S16x256 .f32)
    (p : Fin 1280) (q : Fin 256) :
    k0_pay1 (F := Ideal) x0 x1 x2 (ix2 p q)
      = Ideal.cos (∑ k : Fin 16, coef (x0 (ix2 p 0)) (x1 (ix2 p 0)) k * x2 (ix2 k q)) := by
  rw [pay_eq]
  show Ideal.cos (FloatOps.matmul dot_S1280x16_S16x256_S1280x256_1_0_0_1_n_n none (lhs x0 x1) x2
    (constant S1280x256 .f32 0x00000000#32) (ix2 p q)) = _
  refine congrArg Ideal.cos ?_
  refine (Ideal.matmul_constant_zero_apply _ _ _ _ _).trans ?_
  rw [← Equiv.sum_comp (contrEquiv1 dot_S1280x16_S16x256_S1280x256_1_0_0_1_n_n 16 rfl rfl).symm]
  refine Finset.sum_congr rfl fun k _ => ?_
  rw [lhsIdx_eq, rhsIdx_eq, lhs_apply]

end Cert.KernelIdeal.Pay

end
-- ==== Proof.KernelWhole.lean ====
/-
  From blocks to the whole array. The grid has 250 points; point `t` works on edges `1280·t … 1280·t + 1279`: it is
  handed rows `1280·t …` of the timestamps' and of the types' column and the whole stacked table, and writes back rows
  `1280·t …` of the output. Since entry `(p, q)` of what a point stores depends only on row `p` of its two column
  blocks and on column `q` of the table, every point writes a block of ONE function `wholeK` of the three arrays —
  entry `(e, d)` is `cos (∑ k, coef (ts e) (tp e) k · M[k, d])` — and the 250 blocks tile the 320000 rows, so the
  output array ends holding `wholeK`.
-/
import proofs.«142996_g13769665151128_cont_week2b_1496_2_alg».proof.Proof.Gen.KernelIdeal.Value
import proofs.«142996_g13769665151128_cont_week2b_1496_2_alg».proof.Proof.KernelPay
import Idealize.ShloMosaic.Lib.Pipeline.Value

noncomputable section

namespace Cert.KernelIdeal.Whole

open Cert.KernelIdeal Cert.KernelIdeal.Gen Idealize.ShloMosaic Idealize.ShloMosaic.TcCoe Idealize.SL.Sem
open Idealize.ShloMosaic.ValueIdx Cert.TimeEncode
open Idealize.ShloMosaic.Pipeline (Dat)

variable (m : (ℓ : Loc nD τ sig) → Buf (Elt Ideal) ℓ) (ρ : Dev nD → PrngReg)

theorem hz : (![0, 0] : Fin 2 → Nat) = fun _ => 0 := funext fun a => by fin_cases a <;> rfl

/-- The kernel's output as one function of the three arrays the region reads: the timestamps' column `a0`, the types'
    column `a1` and the stacked table `a2`. -/
def wholeK (a0 : S320000x1.Idx → EReal) (a1 : S320000x1.Idx → BitVec 32) (a2 : S16x256.Idx → EReal) :
    S320000x256.Idx → EReal := fun i =>
  Ideal.cos (∑ k : Fin 16, coef (a0 (ix2 (⟨(i 0).val, idx2_lt0 i⟩ : Fin 320000) (0 : Fin 1)))
    (a1 (ix2 (⟨(i 0).val, idx2_lt0 i⟩ : Fin 320000) (0 : Fin 1))) k * a2 (ix2 k (⟨(i 1).val, idx2_lt1 i⟩ : Fin 256)))

/-- One entry of a point's stored block is the entry of `wholeK` whose row's column entries and whose column's table
    entries the point's blocks hold. -/
theorem entry_eq (x0 : Vec Ideal S1280x1 .f32) (x1 : Vec Ideal S1280x1 .i32) (x2 : FVec Ideal S16x256 .f32)
    (a0 : S320000x1.Idx → EReal) (a1 : S320000x1.Idx → BitVec 32) (a2 : S16x256.Idx → EReal)
    (j : S1280x256.Idx) (i : S320000x256.Idx)
    (h0 : x0 (ix2 (⟨(j 0).val, idx2_lt0 j⟩ : Fin 1280) (0 : Fin 1)) = a0 (ix2 (⟨(i 0).val, idx2_lt0 i⟩ : Fin 320000) (0 : Fin 1)))
    (h1 : x1 (ix2 (⟨(j 0).val, idx2_lt0 j⟩ : Fin 1280) (0 : Fin 1)) = a1 (ix2 (⟨(i 0).val, idx2_lt0 i⟩ : Fin 320000) (0 : Fin 1)))
    (h2 : ∀ k : Fin 16, x2 (ix2 k (⟨(j 1).val, idx2_lt1 j⟩ : Fin 256)) = a2 (ix2 k (⟨(i 1).val, idx2_lt1 i⟩ : Fin 256))) :
    k0_pay1 (F := Ideal) x0 x1 x2 j = wholeK a0 a1 a2 i := by
  obtain ⟨p, q, rfl⟩ : ∃ (p : Fin 1280) (q : Fin 256), j = ix2 p q := ⟨j 0, j 1, eq_ix2 j⟩
  rw [Pay.pay_apply]
  unfold wholeK
  refine congrArg Ideal.cos (Finset.sum_congr rfl fun k _ => ?_)
  rw [← h0, ← h1, ← h2 k]

/-- The printed index maps over the 250 points: the two column windows and the output move together, block `t` at
    point `t`; the table's window stays at block `(0, 0)`. -/
theorem idx_facts : ∀ t : Fin cfg0.N, win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- The timestamps' block at point `t` holds rows `1280·t …` of the column. -/
theorem blk0_apply (c : Dev nD) (t : Fin cfg0.N) (y : S1280x1.Idx) (i : S320000x1.Idx)
    (hi0 : (i 0).val = t.val * 1280 + (y 0).val) (hi1 : (i 1).val = (y 1).val) :
    (iblk m c 0 t : Vec Ideal S1280x1 .f32) y = (V m c main_v1 : S320000x1.Idx → EReal) i := by
  obtain ⟨e0, e1, -⟩ := idx_facts t
  unfold iblk
  rw [View.read_apply]
  show V m c main_v1 _ = V m c main_v1 _
  congr 1
  funext a
  apply Fin.ext
  match a with
  | ⟨0, _⟩ => show win0_0.index t (0 : Fin 2) * 1280 + 1 * (y 0).val = (i 0).val; rw [e0, hi0]; omega
  | ⟨1, _⟩ => show win0_0.index t (1 : Fin 2) * 1 + 1 * (y 1).val = (i 1).val; rw [e1, hi1]; omega

/-- The types' block at point `t` holds rows `1280·t …` of the column. -/
theorem blk1_apply (c : Dev nD) (t : Fin cfg0.N) (y : S1280x1.Idx) (i : S320000x1.Idx)
    (hi0 : (i 0).val = t.val * 1280 + (y 0).val) (hi1 : (i 1).val = (y 1).val) :
    (iblk m c 1 t : Vec Ideal S1280x1 .i32) y = (V m c main_v2 : S320000x1.Idx → BitVec 32) i := by
  obtain ⟨-, -, e0, e1, -⟩ := idx_facts t
  unfold iblk
  rw [View.read_apply]
  show V m c main_v2 _ = V m c main_v2 _
  congr 1
  funext a
  apply Fin.ext
  match a with
  | ⟨0, _⟩ => show win0_1.index t (0 : Fin 2) * 1280 + 1 * (y 0).val = (i 0).val; rw [e0, hi0]; omega
  | ⟨1, _⟩ => show win0_1.index t (1 : Fin 2) * 1 + 1 * (y 1).val = (i 1).val; rw [e1, hi1]; omega

/-- The table's block is the whole table at every point. -/
theorem blk2_apply (c : Dev nD) (t : Fin cfg0.N) (y : S16x256.Idx) :
    (iblk m c 2 t : Vec Ideal S16x256 .f32) y = (V m c main_v0 : S16x256.Idx → EReal) y := by
  obtain ⟨-, -, -, -, e0, e1, -⟩ := idx_facts t
  unfold iblk
  rw [View.read_apply]
  show V m c main_v0 _ = V m c main_v0 _
  congr 1
  funext a
  apply Fin.ext
  match a with
  | ⟨0, _⟩ => show win0_2.index t (0 : Fin 2) * 16 + 1 * (y 0).val = (y 0).val; rw [e0]; omega
  | ⟨1, _⟩ => show win0_2.index t (1 : Fin 2) * 256 + 1 * (y 1).val = (y 1).val; rw [e1]; omega

/-- WHAT POINT `t` WRITES BACK is block `t` of `wholeK` of the arrays as the region finds them. -/
theorem flushed_eq (c : Dev nD) (t : Fin cfg0.N) :
    (dats m 0 c).flushed 3 t = ((cfg0.win 3).blk t).view.read (Elt Ideal)
      (wholeK (V m c main_v1) (V m c main_v2) (V m c main_v0)) := by
  rw [Value.flushed3]
  unfold out0_3
  rw [View.canon_unit_zero hz]
  simp only [View.ld_unit_zero (S := S1280x1) hz, View.ld_unit_zero (S := S16x256) hz]
  obtain ⟨-, -, -, -, -, -, e0, e1⟩ := idx_facts t
  funext j
  show k0_pay1 (F := Ideal) (iblk m c 0 t) (iblk m c 1 t) (iblk m c 2 t) j
    = wholeK (V m c main_v1) (V m c main_v2) (V m c main_v0) (((cfg0.win 3).blk t).view.emb j)
  have hr : ((((cfg0.win 3).blk t).view.emb j) 0).val = t.val * 1280 + (j 0).val := by
    show win0_3.index t (0 : Fin 2) * 1280 + 1 * (j 0).val = _
    rw [e0]; omega
  have hc : ((((cfg0.win 3).blk t).view.emb j) 1).val = (j 1).val := by
    show win0_3.index t (1 : Fin 2) * 256 + 1 * (j 1).val = _
    rw [e1]; omega
  refine entry_eq (iblk m c 0 t) (iblk m c 1 t) (iblk m c 2 t) (V m c main_v1) (V m c main_v2) (V m c main_v0) j
    (((cfg0.win 3).blk t).view.emb j) ?_ ?_ ?_
  · exact blk0_apply m c t _ _ hr rfl
  · exact blk1_apply m c t _ _ hr rfl
  · intro k
    rw [blk2_apply m c t]
    exact congrArg (V m c main_v0) (funext fun a => Fin.ext (by
      match a with
      | ⟨0, _⟩ => rfl
      | ⟨1, _⟩ => exact hc.symm))

/-- An index of the array is in point `t`'s block iff each coordinate is in the block's range on its axis. -/
theorem mem_blk (t : Fin cfg0.N) (i : S320000x256.Idx) :
    i ∈ ((cfg0.win 3).blk t).view.set ↔ ∀ a : Fin 2, win0_3.index t a * S1280x256.size a ≤ (i a).val
      ∧ (i a).val < win0_3.index t a * S1280x256.size a + S1280x256.size a := by
  show i ∈ ((View.whole main_v3).slice (win0_3.rect t)).set ↔ _
  rw [View.set_slice_whole, Rect.mem_set_unit]
  exact Iff.rfl

/-- THE COVER: row `r` of the output lies in the block of point `r / 1280`. -/
theorem cover (i : S320000x256.Idx) :
    ∃ t : Fin cfg0.N, (cfg0.win 3).flush t = true ∧ i ∈ ((cfg0.win 3).blk t).view.set := by
  have hi0 : (i 0).val < 320000 := (i 0).isLt
  have hi1 : (i 1).val < 256 := (i 1).isLt
  have hN : cfg0.N = 250 := N_0
  refine ⟨⟨(i 0).val / 1280, by rw [hN]; omega⟩, flush0_3 _, ?_⟩
  rw [mem_blk]
  obtain ⟨-, -, -, -, -, -, e0, e1⟩ := idx_facts ⟨(i 0).val / 1280, by rw [hN]; omega⟩
  intro a
  match a with
  | ⟨0, _⟩ =>
    show win0_3.index _ (0 : Fin 2) * 1280 ≤ (i 0).val ∧ (i 0).val < win0_3.index _ (0 : Fin 2) * 1280 + 1280
    rw [e0]
    show (i 0).val / 1280 * 1280 ≤ (i 0).val ∧ (i 0).val < (i 0).val / 1280 * 1280 + 1280
    omega
  | ⟨1, _⟩ =>
    show win0_3.index _ (1 : Fin 2) * 256 ≤ (i 1).val ∧ (i 1).val < win0_3.index _ (1 : Fin 2) * 256 + 256
    rw [e1]
    omega

/-- THE ARRAY after the run is `wholeK` of the arrays the region finds. -/
theorem final (c : Dev nD) :
    (dats m 0 c).arrAt 3 cfg0.N = wholeK (V m c main_v1) (V m c main_v2) (V m c main_v0) :=
  (dats m 0 c).arrAt_eq_of_cover 3 (wholeK (V m c main_v1) (V m c main_v2) (V m c main_v0))
    (fun t _ => flushed_eq m c t) cover

/-- The kernel's run with its output array named as that function, the arguments unchanged. -/
theorem run : θ_run defs (onTc (τ := τ) (main (F := Ideal))) ⟨m, fun _ => 0, ρ⟩ fun r => ∀ c : Dev nD,
      r.2.mem ((c : Thread nD τ).loc main_v3) = wholeK (V m c main_v1) (V m c main_v2) (V m c main_v0)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans (final m c), (h c).2⟩) (Value.run_blocks m ρ)

end Cert.KernelIdeal.Whole

end
-- ==== Proof.KernelHost.lean ====
/-
  What the region finds in its input arrays. Before the kernel is launched the program lays its arguments out:
  the timestamps and the types, vectors of 320000 entries, become columns of height 320000 (a reshape keeps the
  row-major position, so entry `(e, 0)` of the column is entry `e` of the vector), and the frequency table is stacked
  on the phase table, so rows `0 … 7` of the stacked table are the frequency rows and rows `8 … 15` the phase rows.
-/
import proofs.«142996_g13769665151128_cont_week2b_1496_2_alg».proof.Proof.Gen.KernelIdeal.Frame
import Idealize.ShloMosaic.Lib.ValueIdx
import Idealize.ShloMosaic.Lib.Pipeline.Value
import Idealize.ShloMosaic.Lib.StableHlo.Run

noncomputable section

namespace Cert.KernelIdeal.Host

open Cert.KernelIdeal Cert.KernelIdeal.Gen Idealize.ShloMosaic Idealize.ShloMosaic.TcCoe Idealize.SL.Sem
open Idealize.ShloMosaic.ValueIdx

variable (m : (ℓ : Loc nD τ sig) → Buf (Elt Ideal) ℓ)

/-- The timestamps' column is the argument vector reshaped. -/
theorem V_ts (c : Dev nD) : (V m c main_v1 : S320000x1.Idx → EReal)
    = shapeCast S320000x1 (m ((c : Thread nD τ).loc main_arg0)) shapeCasts_S320000_S320000x1 := by
  dsimp only [Gen.V, Gen.hostOps0]
  after_results
  rfl

/-- The types' column is the argument vector reshaped. -/
theorem V_tp (c : Dev nD) : (V m c main_v2 : S320000x1.Idx → BitVec 32)
    = shapeCast S320000x1 (m ((c : Thread nD τ).loc main_arg1)) shapeCasts_S320000_S320000x1 := by
  dsimp only [Gen.V, Gen.hostOps0]
  after_results
  rfl

/-- The stacked table is the frequency table above the phase table. -/
theorem V_tab (c : Dev nD) : (V m c main_v0 : S16x256.Idx → EReal)
    = concatenate S16x256 0 [⟨S8x256, m ((c : Thread nD τ).loc main_arg2)⟩, ⟨S8x256, m ((c : Thread nD τ).loc main_arg3)⟩]
        concatenates_S8x256_S8x256_S16x256_d0 := by
  dsimp only [Gen.V, Gen.hostOps0]
  after_results

/-- A vector of 320000 entries reshaped to a column reads entry `e` at `(e, 0)`. -/
theorem col_apply {α : Type} (x : S320000.Idx → α) (e : Fin 320000) :
    shapeCast S320000x1 x shapeCasts_S320000_S320000x1 (ix2 e 0) = x (ix1 e) :=
  shapeCast_apply x shapeCasts_S320000_S320000x1 (ix2 e 0) (ix1 e) (by
    rw [Shape.rowMajor_val_one, Shape.rowMajor_val_two]
    show e.val = e.val * 1 + 0
    omega)

theorem V_ts_apply (c : Dev nD) (e : Fin 320000) :
    (V m c main_v1 : S320000x1.Idx → EReal) (ix2 e 0) = m ((c : Thread nD τ).loc main_arg0) (ix1 e) := by
  rw [V_ts, col_apply]

theorem V_tp_apply (c : Dev nD) (e : Fin 320000) :
    (V m c main_v2 : S320000x1.Idx → BitVec 32) (ix2 e 0) = m ((c : Thread nD τ).loc main_arg1) (ix1 e) := by
  rw [V_tp, col_apply]

/-- Row `r < 8` of the stacked table is frequency row `r`. -/
theorem V_tab_low (c : Dev nD) (r : Fin 8) (q : Fin 256) (h : r.val < 16) :
    (V m c main_v0 : S16x256.Idx → EReal) (ix2 (⟨r.val, h⟩ : Fin 16) q) = m ((c : Thread nD τ).loc main_arg2) (ix2 r q) := by
  rw [V_tab]
  exact concatenate_pair_apply_left (t := S16x256) (s₁ := S8x256) (s₂ := S8x256) 0 _ _ concatenates_S8x256_S8x256_S16x256_d0
    (ix2 (⟨r.val, h⟩ : Fin 16) q) rfl (ix2 r q) (fun b => by
      match b with
      | ⟨0, _⟩ => rfl
      | ⟨1, _⟩ => rfl)

/-- Row `r + 8` of the stacked table is phase row `r`. -/
theorem V_tab_high (c : Dev nD) (r : Fin 8) (q : Fin 256) (h : r.val + 8 < 16) :
    (V m c main_v0 : S16x256.Idx → EReal) (ix2 (⟨r.val + 8, h⟩ : Fin 16) q) = m ((c : Thread nD τ).loc main_arg3) (ix2 r q) := by
  rw [V_tab]
  exact concatenate_pair_apply_right (t := S16x256) (s₁ := S8x256) (s₂ := S8x256) 0 _ _ concatenates_S8x256_S8x256_S16x256_d0
    (ix2 (⟨r.val + 8, h⟩ : Fin 16) q) rfl rfl (ix2 r q) (fun b hb => by
      match b with
      | ⟨0, _⟩ => exact absurd rfl hb
      | ⟨1, _⟩ => rfl) rfl

end Cert.KernelIdeal.Host

end
-- ==== Proof.KernelEnc.lean ====
/-
  The kernel's output is the encoding. Entry `(e, d)` of the kernel's output is the cosine of the one-hot product of
  edge `e`'s coefficients with column `d` of the stacked table. For a type `tp e` in `[0, 8)` that product is
  `ts e · M[tp e, d] + M[tp e + 8, d]`, and row `tp e` of the stacked table is frequency row `tp e`, row `tp e + 8`
  phase row `tp e`: the entry is `cos (ts e · W[tp e, d] + b[tp e, d])`.
-/
import proofs.«142996_g13769665151128_cont_week2b_1496_2_alg».proof.Proof.KernelWhole
import proofs.«142996_g13769665151128_cont_week2b_1496_2_alg».proof.Proof.KernelHost
import proofs.«142996_g13769665151128_cont_week2b_1496_2_alg».proof.Proof.Spec

noncomputable section

namespace Cert.KernelIdeal.Enc

open Cert.KernelIdeal Cert.KernelIdeal.Gen Idealize.ShloMosaic Idealize.ShloMosaic.TcCoe Idealize.SL.Sem
open Idealize.ShloMosaic.ValueIdx Cert.TimeEncode

variable (m : (ℓ : Loc nD τ sig) → Buf (Elt Ideal) ℓ)

/-- Entry `(e, d)` of the kernel's function of the arrays the region finds, for an edge whose type is below eight. -/
theorem wholeK_apply (c : Dev nD) (e : Fin 320000) (d : Fin 256)
    (h : ((m ((c : Thread nD τ).loc main_arg1) : S320000.Idx → BitVec 32) (ix1 e)).toNat < 8) :
    Whole.wholeK (V m c main_v1) (V m c main_v2) (V m c main_v0) (ix2 e d)
      = encAt (m ((c : Thread nD τ).loc main_arg0)) (m ((c : Thread nD τ).loc main_arg1))
          (m ((c : Thread nD τ).loc main_arg2)) (m ((c : Thread nD τ).loc main_arg3)) e d := by
  show Ideal.cos (∑ k : Fin 16, coef ((V m c main_v1 : S320000x1.Idx → EReal) (ix2 e 0))
    ((V m c main_v2 : S320000x1.Idx → BitVec 32) (ix2 e 0)) k * (V m c main_v0 : S16x256.Idx → EReal) (ix2 k d)) = _
  rw [Host.V_ts_apply, Host.V_tp_apply]
  rw [sum_coef _ _ h (fun k => (V m c main_v0 : S16x256.Idx → EReal) (ix2 k d))]
  have hr := row_val_of_lt _ h
  have e1 : (⟨((m ((c : Thread nD τ).loc main_arg1) : S320000.Idx → BitVec 32) (ix1 e)).toNat, by omega⟩ : Fin 16)
      = ⟨(row ((m ((c : Thread nD τ).loc main_arg1) : S320000.Idx → BitVec 32) (ix1 e))).val, by omega⟩ :=
    Fin.ext hr.symm
  have e2 : (⟨((m ((c : Thread nD τ).loc main_arg1) : S320000.Idx → BitVec 32) (ix1 e)).toNat + 8, by omega⟩ : Fin 16)
      = ⟨(row ((m ((c : Thread nD τ).loc main_arg1) : S320000.Idx → BitVec 32) (ix1 e))).val + 8, by omega⟩ :=
    Fin.ext (congrArg (· + 8) hr.symm)
  rw [e1, e2, Host.V_tab_low, Host.V_tab_high]
  rfl

end Cert.KernelIdeal.Enc

end
-- ==== Proof.RefRun.lean ====
/-
  The run of the reference program, read back as one pure term.

  The reference gathers a row of the frequency table and a row of the phase table per edge (the function
  `take`, called twice), multiplies the first by the edge's timestamp broadcast along the features, adds the
  second, and takes the cosine. Its @main is a straight line of fifty-one host operations once the two calls
  (and the `where` each makes) are unfolded at their call sites: twenty-three per call, five after them. This
  module lists them, shows @main is that line, and states the run: every weakly fair execution terminates with
  the result buffer at `refTerm` of the four arguments' launch contents, the arguments unchanged.
-/
import proofs.«142996_g13769665151128_cont_week2b_1496_2_alg».proof.Proof.Gen.ReferenceIdeal
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-! ## The pure term -/

/-- A row index counted from the end made one counted from the start: `idx + 8` where `idx < 0`, else `idx`. -/
def wrap (idx : IVec S320000 32) : IVec S320000 32 :=
  select (cmpi .slt idx (broadcastInDim S320000 ![] bcast_S_S320000 (constantI S_ 32 0#32)))
    (addi idx (broadcastInDim S320000 ![] bcast_S_S320000 (constantI S_ 32 8#32))) idx

/-- The wrapped indices as a column: one index vector of length one per edge. -/
def col (idx : IVec S320000 32) : IVec S320000x1 32 :=
  broadcastInDim S320000x1 ![0] bcast_S320000_S320000x1_0 (wrap idx)

/-- Per edge, whether its wrapped index names a row: `0 ≤ idx' ∧ idx' ≤ 7`, the conjunction reduced over the
    index vector's one component. -/
def inRange (idx : IVec S320000 32) : IVec S320000 1 :=
  Host.reduce IntOp.andi
    (andi (cmpi .sge (col idx) (broadcastInDim S320000x1 ![] bcast_S_S320000x1 (constantI S_ 32 0#32)))
      (cmpi .sle (col idx)
        (broadcastInDim S320000x1 ![0, 1] bcast_S1x1_S320000x1_0_1
          (broadcastInDim S1x1 ![1] bcast_S1_S1x1_1 (constantI S1 32 7#32)))))
    (constantI S_ 1 1#1) reducesTo_S320000x1_S320000_d1 h_S_

/-- `take x idx`: per edge the row of `x` its wrapped index names, where that index names a row; elsewhere the
    fill value (a NaN). The composed term of the function's twenty-three operations. -/
def takeRows (x : FVec F S8x256 .f32) (idx : IVec S320000 32) : FVec F S320000x256 .f32 :=
  select (broadcastInDim S320000x256 ![0] bcast_S320000_S320000x256_0 (inRange idx))
    (Host.gather gather_S8x256_S320000x1_S320000x256_1_0_n_n_0_1_1256 x (col idx))
    (broadcastInDim S320000x256 ![] bcast_S_S320000x256 (constant S_ .f32 0x7FC00000#32))

/-- The reference's result from its four arguments: `cos (ts[:, None] · take W tp + take b tp)`. -/
def refTerm (ts : FVec F S320000 .f32) (tp : IVec S320000 32) (W b : FVec F S8x256 .f32) : FVec F S320000x256 .f32 :=
  Host.cos (addf (mulf (broadcastInDim S320000x256 ![0, 1] bcast_S320000x1_S320000x256_0_1
    (broadcastInDim S320000x1 ![0] bcast_S320000_S320000x1_0 ts)) (takeRows W tp)) (takeRows b tp))

/-! ## The program as a line of operations -/

/-- @main's fifty-one operations in order, the calls unfolded: `take` over the frequency table into the first
    call's buffers (its `where` is the seventh, a select), `take` over the phase table into the second call's,
    then @main's own five. -/
abbrev ops : List (HloOp τ sig (Elt F)) :=
  [
    TRef.nullary main_call0.c (constantI S_ 32 0#32),
    TRef.unary main_call0.c main_call0.v0 (broadcastInDim S320000 ![] bcast_S_S320000),
    TRef.binary (.of main_arg1) main_call0.v0 main_call0.v1 (cmpi .slt),
    TRef.nullary main_call0.c_0 (constantI S_ 32 8#32),
    TRef.unary main_call0.c_0 main_call0.v2 (broadcastInDim S320000 ![] bcast_S_S320000),
    TRef.binary (.of main_arg1) main_call0.v2 main_call0.v3 addi,
    TRef.ternary main_call0.v1 main_call0.v3 (.of main_arg1) main_call0.call0.v0 select,
    TRef.unary main_call0.call0.v0 main_call0.v5 (broadcastInDim S320000x1 ![0] bcast_S320000_S320000x1_0),
    TRef.nullary main_call0.c_1 (constantI S1 32 7#32),
    TRef.nullary main_call0.c_2 (constantI S_ 32 0#32),
    TRef.unary main_call0.c_2 main_call0.v6 (broadcastInDim S320000x1 ![] bcast_S_S320000x1),
    TRef.binary main_call0.v5 main_call0.v6 main_call0.v7 (cmpi .sge),
    TRef.unary main_call0.c_1 main_call0.v8 (broadcastInDim S1x1 ![1] bcast_S1_S1x1_1),
    TRef.unary main_call0.v8 main_call0.v9 (broadcastInDim S320000x1 ![0, 1] bcast_S1x1_S320000x1_0_1),
    TRef.binary main_call0.v5 main_call0.v9 main_call0.v10 (cmpi .sle),
    TRef.binary main_call0.v7 main_call0.v10 main_call0.v11 andi,
    TRef.nullary main_call0.c_3 (constantI S_ 1 1#1),
    TRef.binary main_call0.v11 main_call0.c_3 main_call0.v12 (fun x v => Host.reduce IntOp.andi x v reducesTo_S320000x1_S320000_d1 h_S_),
    TRef.binary (.of main_arg2) main_call0.v5 main_call0.v13 (fun x i => Host.gather gather_S8x256_S320000x1_S320000x256_1_0_n_n_0_1_1256 x i),
    TRef.unary main_call0.v12 main_call0.v14 (broadcastInDim S320000x256 ![0] bcast_S320000_S320000x256_0),
    TRef.nullary main_call0.cst (constant S_ .f32 0x7FC00000#32),
    TRef.unary main_call0.cst main_call0.v15 (broadcastInDim S320000x256 ![] bcast_S_S320000x256),
    TRef.ternary main_call0.v14 main_call0.v13 main_call0.v15 main_call0.v16 select,
    TRef.nullary main_call1.c (constantI S_ 32 0#32),
    TRef.unary main_call1.c main_call1.v0 (broadcastInDim S320000 ![] bcast_S_S320000),
    TRef.binary (.of main_arg1) main_call1.v0 main_call1.v1 (cmpi .slt),
    TRef.nullary main_call1.c_0 (constantI S_ 32 8#32),
    TRef.unary main_call1.c_0 main_call1.v2 (broadcastInDim S320000 ![] bcast_S_S320000),
    TRef.binary (.of main_arg1) main_call1.v2 main_call1.v3 addi,
    TRef.ternary main_call1.v1 main_call1.v3 (.of main_arg1) main_call1.call0.v0 select,
    TRef.unary main_call1.call0.v0 main_call1.v5 (broadcastInDim S320000x1 ![0] bcast_S320000_S320000x1_0),
    TRef.nullary main_call1.c_1 (constantI S1 32 7#32),
    TRef.nullary main_call1.c_2 (constantI S_ 32 0#32),
    TRef.unary main_call1.c_2 main_call1.v6 (broadcastInDim S320000x1 ![] bcast_S_S320000x1),
    TRef.binary main_call1.v5 main_call1.v6 main_call1.v7 (cmpi .sge),
    TRef.unary main_call1.c_1 main_call1.v8 (broadcastInDim S1x1 ![1] bcast_S1_S1x1_1),
    TRef.unary main_call1.v8 main_call1.v9 (broadcastInDim S320000x1 ![0, 1] bcast_S1x1_S320000x1_0_1),
    TRef.binary main_call1.v5 main_call1.v9 main_call1.v10 (cmpi .sle),
    TRef.binary main_call1.v7 main_call1.v10 main_call1.v11 andi,
    TRef.nullary main_call1.c_3 (constantI S_ 1 1#1),
    TRef.binary main_call1.v11 main_call1.c_3 main_call1.v12 (fun x v => Host.reduce IntOp.andi x v reducesTo_S320000x1_S320000_d1 h_S_),
    TRef.binary (.of main_arg3) main_call1.v5 main_call1.v13 (fun x i => Host.gather gather_S8x256_S320000x1_S320000x256_1_0_n_n_0_1_1256 x i),
    TRef.unary main_call1.v12 main_call1.v14 (broadcastInDim S320000x256 ![0] bcast_S320000_S320000x256_0),
    TRef.nullary main_call1.cst (constant S_ .f32 0x7FC00000#32),
    TRef.unary main_call1.cst main_call1.v15 (broadcastInDim S320000x256 ![] bcast_S_S320000x256),
    TRef.ternary main_call1.v14 main_call1.v13 main_call1.v15 main_call1.v16 select,
    unary main_arg0 main_v2 (broadcastInDim S320000x1 ![0] bcast_S320000_S320000x1_0 : (⟨S320000, .f32⟩ : BufTy).Contents (Elt F) → (⟨S320000x1, .f32⟩ : BufTy).Contents (Elt F)),
    unary main_v2 main_v3 (broadcastInDim S320000x256 ![0, 1] bcast_S320000x1_S320000x256_0_1 : (⟨S320000x1, .f32⟩ : BufTy).Contents (Elt F) → (⟨S320000x256, .f32⟩ : BufTy).Contents (Elt F)),
    binary main_v3 main_v0 main_v4 (mulf : (⟨S320000x256, .f32⟩ : BufTy).Contents (Elt F) → (⟨S320000x256, .f32⟩ : BufTy).Contents (Elt F) → (⟨S320000x256, .f32⟩ : BufTy).Contents (Elt F)),
    binary main_v4 main_v1 main_v5 (addf : (⟨S320000x256, .f32⟩ : BufTy).Contents (Elt F) → (⟨S320000x256, .f32⟩ : BufTy).Contents (Elt F) → (⟨S320000x256, .f32⟩ : BufTy).Contents (Elt F)),
    unary main_v5 main_v6 (Host.cos : (⟨S320000x256, .f32⟩ : BufTy).Contents (Elt F) → (⟨S320000x256, .f32⟩ : BufTy).Contents (Elt F)) ]

-- fifty-one binds re-associated: the rewrite under the chain recurses once per statement
set_option maxRecDepth 1024 in
/-- @main is that straight line: the two functions' definitions unfolded at their calls, both sides are one chain
    of host steps once sequencing is reassociated. -/
theorem main_eq (c : Dev nD) : main (F := F) c = seq ops := by
  simp only [main, fn_take.body, fn_where.body, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨
    nullary_bufs_sub .., unary_bufs_sub .., binary_bufs_sub .., nullary_bufs_sub .., unary_bufs_sub .., binary_bufs_sub ..,
    ternary_bufs_sub .., unary_bufs_sub .., nullary_bufs_sub .., nullary_bufs_sub .., unary_bufs_sub .., binary_bufs_sub ..,
    unary_bufs_sub .., unary_bufs_sub .., binary_bufs_sub .., binary_bufs_sub .., nullary_bufs_sub .., binary_bufs_sub ..,
    binary_bufs_sub .., unary_bufs_sub .., nullary_bufs_sub .., unary_bufs_sub .., ternary_bufs_sub .., nullary_bufs_sub ..,
    unary_bufs_sub .., binary_bufs_sub .., nullary_bufs_sub .., unary_bufs_sub .., binary_bufs_sub .., ternary_bufs_sub ..,
    unary_bufs_sub .., nullary_bufs_sub .., nullary_bufs_sub .., unary_bufs_sub .., binary_bufs_sub .., unary_bufs_sub ..,
    unary_bufs_sub .., binary_bufs_sub .., binary_bufs_sub .., nullary_bufs_sub .., binary_bufs_sub .., binary_bufs_sub ..,
    unary_bufs_sub .., nullary_bufs_sub .., unary_bufs_sub .., ternary_bufs_sub .., unary_bufs_sub .., unary_bufs_sub ..,
    binary_bufs_sub .., binary_bufs_sub .., unary_bufs_sub ..⟩

/-! ## The fold at the buffers the statement names -/

attribute [local irreducible] Host.reduce Host.gather in
set_option maxRecDepth 8192 in
set_option maxHeartbeats 400000 in
/-- The fold at the result buffer is `refTerm` of the arguments' contents: each operation's result at its own
    buffer is its function's value, at any other what was there; the reduction and the gather stay folded while
    the two sides are compared (the equation never looks inside them). -/
theorem out_eq (V : Valuation τ sig (Elt F)) :
    after ops V (main_v6 : DevRef τ sig)
      = refTerm (V (main_arg0 : DevRef τ sig)) (V (main_arg1 : DevRef τ sig)) (V (main_arg2 : DevRef τ sig))
          (V (main_arg3 : DevRef τ sig)) := by
  after_results_simp
  rfl

theorem arg0_eq (V : Valuation τ sig (Elt F)) :
    after ops V (main_arg0 : DevRef τ sig) = V (main_arg0 : DevRef τ sig) := by
  after_results_simp

theorem arg1_eq (V : Valuation τ sig (Elt F)) :
    after ops V (main_arg1 : DevRef τ sig) = V (main_arg1 : DevRef τ sig) := by
  after_results_simp

theorem arg2_eq (V : Valuation τ sig (Elt F)) :
    after ops V (main_arg2 : DevRef τ sig) = V (main_arg2 : DevRef τ sig) := by
  after_results_simp

theorem arg3_eq (V : Valuation τ sig (Elt F)) :
    after ops V (main_arg3 : DevRef τ sig) = V (main_arg3 : DevRef τ sig) := by
  after_results_simp

/-! ## The run -/

/-- On every device, for any float values, from any memory with zero counters: every weakly fair execution of
    @main terminates with the result buffer at `refTerm` of the four arguments' launch contents and the arguments
    unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v6) = refTerm (m ((c.tc : Thread nD τ).loc main_arg0)) (m ((c.tc : Thread nD τ).loc main_arg1)) (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c => ⟨(h c main_v6).trans (out_eq _),
      (h c main_arg0).trans (arg0_eq _),
      (h c main_arg1).trans (arg1_eq _),
      (h c main_arg2).trans (arg2_eq _),
      (h c main_arg3).trans (arg3_eq _)⟩)
    (run_seq scopedRefs_eq scopedSems_eq defs main (fun _ => ops) main_eq (fun _ => ops_sub) m ρ)

end Cert.ReferenceIdeal.RefRun

end
-- ==== Proof.LibGatherRows.lean ====
/-
  A reusable general lemma: `stablehlo.gather` of WHOLE ROWS of a rank-2 operand, read at an index.

  What `x[idx]` of a table `x : [N, C]` at an integer array `idx : [R]` lowers to: a gather with offset_dims `[1]`,
  collapsed_slice_dims `[0]`, start_index_map `[0]`, index_vector_dim 1 and slice sizes `[1, C]` over the indices as a
  column `[R, 1]`. Result element `(r, c)` is `x` at row `idx[r, 0]` — read as a signed integer and clamped into
  `[0, N − 1]`, as the operation clamps every start index so that the slice fits — and column `c`: on the collapsed
  axis the operand index is the clamped start alone, on the other axis (which the start index map does not name) it is
  the result's own offset coordinate. Stated at any extents `N`, `R`, `C` and any index width.
-/
import Idealize.ShloMosaic.Lib.ValueIdx

noncomputable section

namespace Idealize.ShloMosaic.GatherRows

open Idealize.ShloMosaic Idealize.ShloMosaic.ValueIdx

variable {α : Type}

/-- The row gather's dimension numbers for an operand `[N, C]`, start indices `[R, 1]` and result `[R, C]`; their
    conditions `wf` are decided on a program's literal shapes. -/
abbrev rowDims (N R C : Nat)
    (wf : GatherDims.WF ⟨2, ![N, C]⟩ ⟨2, ![R, 1]⟩ ⟨2, ![R, C]⟩ [1] [0] [] [0] [] 1 ![1, C]) :
    GatherDims ⟨2, ![N, C]⟩ ⟨2, ![R, 1]⟩ ⟨2, ![R, C]⟩ where
  offsetDims := [1]
  collapsedSliceDims := [0]
  operandBatchingDims := []
  startIndicesBatchingDims := []
  startIndexMap := [0]
  indexVectorDim := 1
  sliceSizes := ![1, C]
  wf := wf

/-- THE ROW GATHER READ AT `(r, c)`: the operand at row `idx[r, 0]`, read signed and clamped into `[0, N − 1]`, and
    column `c`. -/
theorem gather_rows_apply {N R C w : Nat} (hN : 0 < N)
    (wf : GatherDims.WF ⟨2, ![N, C]⟩ ⟨2, ![R, 1]⟩ ⟨2, ![R, C]⟩ [1] [0] [] [0] [] 1 ![1, C])
    (x : (⟨2, ![N, C]⟩ : Shape).Idx → α) (idx : IVec ⟨2, ![R, 1]⟩ w) (r : Fin R) (c : Fin C) :
    Host.gather (rowDims N R C wf) x idx (ix2 r c)
      = x (ix2 ⟨min (idx (ix2 r (0 : Fin 1))).toInt.toNat (N - 1), by omega⟩ c) := by
  unfold Host.gather
  congr 1
  funext a
  refine Fin.ext ?_
  match a with
  | ⟨0, _⟩ =>
    show (rowDims N R C wf).start (ix2 r c) idx 0 + (rowDims N R C wf).batchCoord (ix2 r c) 0
        + (rowDims N R C wf).offCoord (ix2 r c) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowDims N R C wf).startIndexMap from List.mem_singleton.mpr rfl)]
    have hsi : (rowDims N R C wf).siIdx (ix2 r c) ⟨List.idxOf (0 : Fin 2) (rowDims N R C wf).startIndexMap,
        List.idxOf_lt_length_iff.2 (List.mem_singleton.mpr rfl)⟩ = ix2 r (0 : Fin 1) := by
      funext b; refine Fin.ext ?_
      match b with
      | ⟨0, _⟩ => rfl
      | ⟨1, _⟩ => rfl
    rw [hsi]
    rfl
  | ⟨1, _⟩ =>
    show (rowDims N R C wf).start (ix2 r c) idx 1 + (rowDims N R C wf).batchCoord (ix2 r c) 1
        + (rowDims N R C wf).offCoord (ix2 r c) 1 = c.val
    rw [GatherDims.batchCoord_eq_zero _ _ _ List.not_mem_nil]
    unfold GatherDims.start
    rw [dif_neg (show (1 : Fin 2) ∉ (rowDims N R C wf).startIndexMap from (by decide : (1 : Fin 2) ∉ [(0 : Fin 2)]))]
    simp only [Nat.add_zero, Nat.zero_add]
    rfl

end Idealize.ShloMosaic.GatherRows

end
-- ==== Proof.RefRead.lean ====
/-
  The reference's result read at one entry.

  For an edge `e` whose type lies in `[0, 8)` and a feature `d`, entry `(e, d)` of the reference's result is the
  specification's `encAt`: the type is not negative, so the index counted from the start is the type itself; it lies
  between 0 and 7, so the in-range mask — the conjunction of the two comparisons, reduced over the index vector's one
  component from `true` — is 1 and the select keeps the gathered value; the row gather reads the table at the row the
  (clamped, here unchanged) index names and at column `d`; the timestamp's two broadcasts read `ts e`; and at the
  extended reals the product, the sum and the cosine are the textbook ones.
-/
import proofs.«142996_g13769665151128_cont_week2b_1496_2_alg».proof.Proof.RefRun
import proofs.«142996_g13769665151128_cont_week2b_1496_2_alg».proof.Proof.Spec
import proofs.«142996_g13769665151128_cont_week2b_1496_2_alg».proof.Proof.LibGatherRows
import Idealize.ShloMosaic.Lib.ValueIdx
import Idealize.ShloMosaic.Lib.Pipeline.Value
import Idealize.ShloMosaic.PureOps.Reduce

noncomputable section

namespace Cert.ReferenceIdeal.RefRead

open Cert.ReferenceIdeal Cert.ReferenceIdeal.Gen Idealize.ShloMosaic Idealize.ShloMosaic.ValueIdx

/-! ## Words -/

/-- A 32-bit word below eight, read signed: it is not negative, it is at least 0 and at most 7, and clamping it into
    `[0, 7]` leaves it. (Eight words: each case is a computation.) -/
theorem word_lt_eight (v : BitVec 32) (h : v.toNat < 8) :
    IntOp.cmpi .slt v 0#32 = 0#1 ∧ IntOp.cmpi .sge v 0#32 = 1#1 ∧ IntOp.cmpi .sle v 7#32 = 1#1
      ∧ min v.toInt.toNat (8 - 1) = v.toNat := by
  obtain ⟨n, hn, rfl⟩ : ∃ n, n < 8 ∧ v = BitVec.ofNat 32 n :=
    ⟨v.toNat, h, BitVec.eq_of_toNat_eq (by simp)⟩
  interval_cases n <;> decide

/-- The coordinate a broadcast along the edges reads: the edge axis has more than one element, so it is the result's own. -/
theorem edge_coord (e : Fin 320000) (v : Nat) : e.val = if (320000 : Nat) = 1 then v else e.val := by
  rw [if_neg (by decide)]

/-! ## The reduction over the index vector's one component -/

theorem reduces_col : S320000x1.Reduces [1] S320000 := by decide

/-- A conjunction reduced over an axis of extent one is the one element and the initial value. -/
theorem reduce_col_apply (x : S320000x1.Idx → BitVec 1) (init : S_.Idx → BitVec 1)
    (h' : S320000x1.ReducesTo [1] S320000) (hu : 0 < S_.numel) (e : Fin 320000) :
    Host.reduce IntOp.andi x init h' hu (ix1 e) = IntOp.andi (x (ix2 e (0 : Fin 1))) (init (Shape.Idx.first hu)) := by
  rw [Host.reduce_eq_fold_single IntOp.andi x init h' reduces_col hu (ix1 e)]
  have key : ∀ (g : Fin 1 → BitVec 1) (b : BitVec 1),
      (Finset.univ : Finset (Fin 1)).fold IntOp.andi b g = IntOp.andi (g 0) b := by
    intro g b; rw [Finset.univ_unique, Finset.fold_singleton]; rfl
  refine (key _ _).trans ?_
  show IntOp.andi (x (reduces_col.lift (ix1 e) (0 : Fin 1))) _ = _
  congr 2
  funext c
  refine Fin.ext ?_
  match c with
  | ⟨0, _⟩ => rfl
  | ⟨1, _⟩ => rfl

/-! ## `take` at an entry -/

/-- A type in `[0, 8)` is not negative: the wrapped index is the type. -/
theorem wrap_apply (idx : IVec S320000 32) (e : Fin 320000) (h : (idx (ix1 e)).toNat < 8) :
    RefRun.wrap idx (ix1 e) = idx (ix1 e) := by
  show Scalar.select (IntOp.cmpi .slt (idx (ix1 e)) 0#32) (IntOp.addi (idx (ix1 e)) 8#32) (idx (ix1 e)) = _
  rw [(word_lt_eight _ h).1, select_zero]

/-- The column of wrapped indices at row `e` is edge `e`'s. -/
theorem col_apply (idx : IVec S320000 32) (e : Fin 320000) :
    RefRun.col idx (ix2 e (0 : Fin 1)) = RefRun.wrap idx (ix1 e) := by
  unfold RefRun.col
  refine broadcastInDim_apply (s := S320000) (t := S320000x1) ![0] bcast_S320000_S320000x1_0 (RefRun.wrap idx)
    (ix2 e (0 : Fin 1)) (ix1 e) ?_
  intro a
  match a with
  | ⟨0, _⟩ => exact edge_coord e 0

/-- A type in `[0, 8)` names a row: the mask is 1. -/
theorem inRange_apply (idx : IVec S320000 32) (e : Fin 320000) (h : (idx (ix1 e)).toNat < 8) :
    RefRun.inRange idx (ix1 e) = 1#1 := by
  unfold RefRun.inRange
  rw [reduce_col_apply]
  show IntOp.andi (IntOp.andi (IntOp.cmpi .sge (RefRun.col idx (ix2 e (0 : Fin 1))) 0#32)
    (IntOp.cmpi .sle (RefRun.col idx (ix2 e (0 : Fin 1))) 7#32)) 1#1 = 1#1
  rw [col_apply, wrap_apply idx e h, (word_lt_eight _ h).2.1, (word_lt_eight _ h).2.2.1]
  decide

/-- `take x idx` at `(e, d)`, for a type in `[0, 8)`: the table at the row the type names, column `d`. -/
theorem takeRows_apply (x : FVec Ideal S8x256 .f32) (idx : IVec S320000 32) (e : Fin 320000) (d : Fin 256)
    (h : (idx (ix1 e)).toNat < 8) :
    RefRun.takeRows (F := Ideal) x idx (ix2 e d) = x (ix2 (Cert.TimeEncode.row (idx (ix1 e))) d) := by
  unfold RefRun.takeRows
  rw [select_apply]
  have hm : broadcastInDim S320000x256 ![0] bcast_S320000_S320000x256_0 (RefRun.inRange idx) (ix2 e d) = 1#1 := by
    refine (broadcastInDim_apply (s := S320000) (t := S320000x256) ![0] bcast_S320000_S320000x256_0
      (RefRun.inRange idx) (ix2 e d) (ix1 e) ?_).trans (inRange_apply idx e h)
    intro a
    match a with
    | ⟨0, _⟩ => exact edge_coord e 0
  rw [hm, select_one]
  refine (GatherRows.gather_rows_apply (N := 8) (R := 320000) (C := 256) (by decide)
    gather_S8x256_S320000x1_S320000x256_1_0_n_n_0_1_1256_wf x (RefRun.col idx) e d).trans (congrArg x ?_)
  refine congrArg (fun r : Fin 8 => ix2 r d) (Fin.ext ?_)
  show min (RefRun.col idx (ix2 e (0 : Fin 1))).toInt.toNat (8 - 1) = (Cert.TimeEncode.row (idx (ix1 e))).val
  rw [col_apply, wrap_apply idx e h, (word_lt_eight _ h).2.2.2, Cert.TimeEncode.row_val_of_lt _ h]

/-! ## The result at an entry -/

/-- The timestamps broadcast along the features, at `(e, d)`: edge `e`'s. -/
theorem bcast_ts_apply (ts : FVec Ideal S320000 .f32) (e : Fin 320000) (d : Fin 256) :
    broadcastInDim S320000x256 ![0, 1] bcast_S320000x1_S320000x256_0_1
      (broadcastInDim S320000x1 ![0] bcast_S320000_S320000x1_0 ts) (ix2 e d) = ts (ix1 e) := by
  refine (broadcastInDim_apply (s := S320000x1) (t := S320000x256) ![0, 1] bcast_S320000x1_S320000x256_0_1
    (broadcastInDim S320000x1 ![0] bcast_S320000_S320000x1_0 ts) (ix2 e d) (ix2 e (0 : Fin 1)) ?_).trans
    (broadcastInDim_apply (s := S320000) (t := S320000x1) ![0] bcast_S320000_S320000x1_0 ts (ix2 e (0 : Fin 1)) (ix1 e) ?_)
  · intro a
    match a with
    | ⟨0, _⟩ => exact edge_coord e 0
    | ⟨1, _⟩ =>
      show (0 : Nat) = if (1 : Nat) = 1 then 0 else d.val
      rw [if_pos rfl]
  · intro a
    match a with
    | ⟨0, _⟩ => exact edge_coord e 0

/-- THE REFERENCE AT `(e, d)`, for a type in `[0, 8)`: the specification's entry. -/
theorem refTerm_apply (ts : FVec Ideal S320000 .f32) (tp : IVec S320000 32) (W b : FVec Ideal S8x256 .f32)
    (e : Fin 320000) (d : Fin 256) (h : (tp (ix1 e)).toNat < 8) :
    RefRun.refTerm (F := Ideal) ts tp W b (ix2 e d) = Cert.TimeEncode.encAt ts tp W b e d := by
  show Ideal.cos (broadcastInDim S320000x256 ![0, 1] bcast_S320000x1_S320000x256_0_1
      (broadcastInDim S320000x1 ![0] bcast_S320000_S320000x1_0 ts) (ix2 e d)
        * RefRun.takeRows (F := Ideal) W tp (ix2 e d) + RefRun.takeRows (F := Ideal) b tp (ix2 e d)) = _
  rw [bcast_ts_apply, takeRows_apply W tp e d h, takeRows_apply b tp e d h]
  rfl

end Cert.ReferenceIdeal.RefRead

end
-- ==== Proof.lean ====
/-
  A time encoding of 320000 edges with eight edge types: the kernel against its reference, on the extended reals.

  The reference looks each edge's type up in a frequency table `W` and a phase table `b` (eight rows of 256 features)
  and returns `cos (ts e · W[tp e, d] + b[tp e, d])`. The kernel never looks a row up: per block of 1280 edges it
  builds a 1280 × 16 matrix of one-hot coefficients — `ts e` in column `tp e`, `1` in column `tp e + 8`, zeros
  elsewhere — and multiplies it into the sixteen rows of `W` stacked on `b`, then takes the cosine. On the extended
  reals a zero coefficient kills its term whatever the row holds and a finite sum may be taken in any order, so for a
  type in `[0, 8)` the product is `ts e · W[tp e, d] + b[tp e, d]` and the two programs agree entry by entry.

  The types must lie in `[0, 8)`: outside it the reference wraps a negative type round or fills the row with its
  not-a-number word while the kernel's coefficients all vanish, and the precondition says so (every float input finite,
  every type in `[0, 8)`). Finiteness itself is not used: no law applied here fails at an infinity.

  The parts: `Spec` (the encoding), `OneHot` (the sixteen-term product collapses), `KernelPay` (the body's value at an
  entry), `KernelHost` (the arrays the region reads are the arguments re-laid), `KernelWhole` (250 blocks tile one
  whole-array function), `KernelEnc` (that function is the encoding), `RefRun` and `RefRead` (the reference's run and
  its result read at an entry), `PreRange` (the precondition bounds the types).
-/
import proofs.«142996_g13769665151128_cont_week2b_1496_2_alg».proof.Defs
import proofs.«142996_g13769665151128_cont_week2b_1496_2_alg».proof.Proof.Gen.Kernel
import proofs.«142996_g13769665151128_cont_week2b_1496_2_alg».proof.Proof.Gen.Kernel.Frame
import proofs.«142996_g13769665151128_cont_week2b_1496_2_alg».proof.Proof.Gen.KernelIdeal
import proofs.«142996_g13769665151128_cont_week2b_1496_2_alg».proof.Proof.Gen.KernelIdeal.Frame
import proofs.«142996_g13769665151128_cont_week2b_1496_2_alg».proof.Proof.Gen.KernelIdeal.Value
import proofs.«142996_g13769665151128_cont_week2b_1496_2_alg».proof.Proof.Gen.ReferenceIdeal
import proofs.«142996_g13769665151128_cont_week2b_1496_2_alg».proof.Proof.Gen.Pre_finite_inputs
import proofs.«142996_g13769665151128_cont_week2b_1496_2_alg».proof.Proof.Spec
import proofs.«142996_g13769665151128_cont_week2b_1496_2_alg».proof.Proof.PreRange
import proofs.«142996_g13769665151128_cont_week2b_1496_2_alg».proof.Proof.KernelWhole
import proofs.«142996_g13769665151128_cont_week2b_1496_2_alg».proof.Proof.KernelEnc
import proofs.«142996_g13769665151128_cont_week2b_1496_2_alg».proof.Proof.RefRun
import proofs.«142996_g13769665151128_cont_week2b_1496_2_alg».proof.Proof.RefRead

noncomputable section

namespace Cert.Proof

open Idealize.ShloMosaic Idealize.ShloMosaic.TcCoe Idealize.SL.Sem Idealize.ShloMosaic.ValueIdx

theorem frame_k : Cert.frame_Kernel := fun m ρ _ => Cert.Kernel.Gen.frame m ρ

theorem frame_ki : Cert.frame_KernelIdeal := fun m ρ _ => Cert.KernelIdeal.Gen.frame m ρ

/-- The reference's frame is its run with the result forgotten. -/
theorem frame_ri : Cert.frame_ReferenceIdeal := fun m ρ _ =>
  (θ_run Cert.ReferenceIdeal.defs _ _).mono (fun _ h c => (h c).2) (Cert.ReferenceIdeal.RefRun.run (F := Ideal) m ρ)

/-- The idealization rewrote nothing. -/
theorem preserves : Cert.preserves_Kernel_KernelIdeal := trivial

/-- Both programs end holding the encoding of their (agreeing) arguments. -/
theorem algebraic : Cert.algebraic_KernelIdeal_ReferenceIdeal := by
  intro m ρ m' ρ' hpre hagree
  have hrange : ∀ (c : Dev Cert.KernelIdeal.nD) (e : Fin 320000),
      ((m ((c.tc : Thread Cert.KernelIdeal.nD Cert.KernelIdeal.τ).loc Cert.KernelIdeal.main_arg1)
        : Cert.KernelIdeal.S320000.Idx → BitVec 32) (ix1 e)).toNat < 8 :=
    fun c e => Cert.TimeEncode.PreRange.range_of_pre _ _ _ _ (hpre c) e
  refine ⟨fun c => Cert.TimeEncode.enc
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3)), ?_, ?_⟩
  · refine (θ_run Cert.KernelIdeal.defs _ _).mono (fun r h c => ⟨(h c).1.trans ?_, (h c).2⟩)
      (Cert.KernelIdeal.Whole.run m ρ)
    exact Cert.TimeEncode.eq_enc_of_forall _ _ _ _ _
      (fun e d => Cert.KernelIdeal.Enc.wholeK_apply m c e d (hrange c e))
  · refine (θ_run Cert.ReferenceIdeal.defs _ _).mono (fun r h c => ⟨(h c).1.trans ?_, (h c).2⟩)
      (Cert.ReferenceIdeal.RefRun.run (F := Ideal) m' ρ')
    rw [(hagree c).1, (hagree c).2.1, (hagree c).2.2.1, (hagree c).2.2.2]
    exact Cert.TimeEncode.eq_enc_of_forall _ _ _ _ _
      (fun e d => Cert.ReferenceIdeal.RefRead.refTerm_apply _ _ _ _ e d (hrange c e))

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
